-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x64 : Shape := ⟨2, ![128, 64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_

variable [Facts]

def fn {F : FTy → Type} [FloatOps F] (main_arg0 : FVec F S100000x128 .f32) (main_arg1 : FVec F S128x128 .f32) (main_arg2 : FVec F S128x64 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  main_v13
-- ==== Kernel.lean ====
abbrev S100000x128 : Shape := ⟨2, ![100000, 128]⟩
abbrev S128x128 : Shape := ⟨2, ![128, 128]⟩
abbrev S128x64 : Shape := ⟨2, ![128, 64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S1600000x128 : Shape := ⟨2, ![1600000, 128]⟩
abbrev S100000x64 : Shape := ⟨2, ![100000, 64]⟩
abbrev S4000x128 : Shape := ⟨2, ![4000, 128]⟩
abbrev S4000x64 : Shape := ⟨2, ![4000, 64]⟩

abbrev nBuf : Space → Nat
  | .hbm => 112
  | .vmem => 6
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x64, .f32⟩
  | .hbm, ⟨3, _⟩ => ⟨S2x1600000, .i32⟩
  | .hbm, ⟨4, _⟩ => ⟨S_, .f32⟩
  | .hbm, ⟨5, _⟩ => ⟨S100000x128, .f32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S1600000x128, .f32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S128x64, .f32⟩
  | .local _ .vmem, ⟨4, _⟩ => ⟨S4000x64, .f32⟩
  | .local _ .vmem, ⟨5, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x64.size a ≤ S100000x64.size a
  hwx0_3 : ∀ i : grid0.Coords, EltTy.bits .f32 = 32 ∨ (Rect.block (s := S100000x64) S4000x64.size (cc0_transform_3 i) (hinb0_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v82) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v83) S4000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x64 : Shape := ⟨2, ![128, 64]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S1600000x128 : Shape := ⟨2, ![1600000, 128]⟩
abbrev S100000x64 : Shape := ⟨2, ![100000, 64]⟩

abbrev nBuf : Space → Nat
  | .hbm => 116
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x64, .f32⟩
  | .hbm, ⟨3, _⟩ => ⟨S2x1600000, .i32⟩
  | .hbm, ⟨4, _⟩ => ⟨S_, .f32⟩
  | .hbm, ⟨5, _⟩ => ⟨S100000x128, .f32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000, .f32⟩
  | .hbm, ⟨42, _⟩ => ⟨S1600000, .f32⟩
  | .hbm, ⟨43, _⟩ => ⟨S1600000x1, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x128, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x128, .f32⟩
  | .hbm, ⟨85, _⟩ => ⟨S1600000x128, .f32⟩
  | .hbm, ⟨86, _⟩ => ⟨S1600000x128, .f32⟩
  | .hbm, ⟨87, _⟩ => ⟨S_, .f32⟩
  | .hbm, ⟨88, _⟩ => ⟨S100000x128, .f32⟩
  | .hbm, ⟨89, _⟩ => ⟨S1600000x1, .i32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S1600000x128, .f32⟩
  | .hbm, ⟨102, _⟩ => ⟨S1600000x128, .f32⟩
  | .hbm, ⟨103, _⟩ => ⟨S_, .f32⟩
  | .hbm, ⟨104, _⟩ => ⟨S100000x128, .f32⟩
  | .hbm, ⟨105, _⟩ => ⟨S1600000x1, .i32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S100000x128, .f32⟩
  | .hbm, ⟨112, _⟩ => ⟨S_, .f32⟩
  | .hbm, ⟨113, _⟩ => ⟨S100000x128, .f32⟩
  | .hbm, ⟨114, _⟩ => ⟨S100000x128, .f32⟩
  | .hbm, ⟨115, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_5 : Ref sig .tc := ⟨.hbm, 33, rfl⟩
abbrev main_v20 : Ref sig .tc := ⟨.hbm, 34, rfl⟩
abbrev main_v21 : Ref sig .tc := ⟨.hbm, 35, rfl⟩
abbrev main_c_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_10 : Ref sig .tc := ⟨.hbm, 60, rfl⟩
abbrev main_v42 : Ref sig .tc := ⟨.hbm, 61, rfl⟩
abbrev main_v43 : Ref sig .tc := ⟨.hbm, 62, rfl⟩
abbrev main_c_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_13 : Ref sig .tc := ⟨.hbm, 76, rfl⟩
abbrev main_v55 : Ref sig .tc := ⟨.hbm, 77, rfl⟩
abbrev main_v56 : Ref sig .tc := ⟨.hbm, 78, rfl⟩
abbrev main_c_14 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_19 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_call1_cst : Ref sig .tc := ⟨.hbm, 112, rfl⟩
abbrev main_call1_v0 : Ref sig .tc := ⟨.hbm, 113, rfl⟩
abbrev main_v84 : Ref sig .tc := ⟨.hbm, 114, rfl⟩
abbrev main_v85 : Ref sig .tc := ⟨.hbm, 115, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibMatmulPlain.lean ====
/-
  A plain matrix product read at an index, over the extended reals.

  For the dimension numbers of an M×K by K×N product (contract the left operand's axis 1 with the right
  operand's axis 0, no batch axes), the product accumulated into the zero matrix has, at row `p` and column `q`,
  the entry  Σ_{k < K} lhs(p, k) · rhs(k, q):  the contraction index of the dimension numbers is its one coordinate,
  the left index keeps the row and takes the contraction coordinate as its column, and the right index takes the
  contraction coordinate as its row and keeps the column. Generic in M, K, N and in the operands' formats.
-/
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat}

/-- The left index keeps the output's row. -/
theorem plain_lhs_row (j : (⟨2, ![M, N]⟩ : Shape).Idx) (k : (DotDims.plain M K N).contr.Idx) :
    ((DotDims.plain M K N).lhsIdx j k 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left index's column is the contraction coordinate. -/
theorem plain_lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- The right index's row is the contraction coordinate. -/
theorem plain_rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- The right index keeps the output's column. -/
theorem plain_rhs_col (j : (⟨2, ![M, N]⟩ : Shape).Idx) (k : (DotDims.plain M K N).contr.Idx) :
    ((DotDims.plain M K N).rhsIdx j k 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- THE PRODUCT AT AN ENTRY: a matrix product with plain dimension numbers, accumulated into the zero matrix, is at
    `(p, q)` the sum over the contracted axis of the operands' products. The dimension numbers are passed as any record
    equal to `DotDims.plain M K N` (a printed record with the same six lists is, by `rfl`). -/
theorem matmul_plain_zero_apply {φ₁ φ₂ : FTy} (D : DotDims ⟨2, ![M, K]⟩ ⟨2, ![K, N]⟩ ⟨2, ![M, N]⟩)
    (hD : D = DotDims.plain M K N) (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

end Cert.LibMatmulPlain

end
-- ==== Proof.LibDotGeneralPlain.lean ====
/-
  The host's matrix product read at an index, over the extended reals, and the product as one function.

  `matProd x w` is the M×N matrix whose entry (p, q) is  Σ_{k < K} x(p, k) · w(k, q).  For the dimension numbers of a
  plain M×K by K×N product, the host's `dot_general` (which accumulates onto zero) is `matProd` of its operands, entry
  by entry; together with the same reading of a kernel's matrix product into the zero accumulator
  (LibMatmulPlain) this is what lets a product computed row block by row block be compared with one whole product.
  Generic in M, K, N and in the operands' formats.
-/
import proofs.«177761_j89859305766914_1_alg».proof.Proof.LibMatmulPlain

noncomputable section

open scoped BigOperators

namespace Cert.LibDotGeneralPlain

open Idealize.ShloMosaic Idealize.ShloMosaic.ValueIdx Cert.LibMatmulPlain

variable {M K N : Nat}

/-- The M×K by K×N matrix product over the extended reals: entry (p, q) is the sum over k of x(p, k) · w(k, q). -/
def matProd (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem matProd_apply (x : (⟨2, ![M, K]⟩ : Shape).Idx → EReal) (w : (⟨2, ![K, N]⟩ : Shape).Idx → EReal) (p : Fin M) (q : Fin N) :
    matProd x w (ix2 p q) = ∑ k : Fin K, x (ix2 p k) * w (ix2 k q) := rfl

/-- THE HOST'S PRODUCT AT AN ENTRY: `dot_general` with plain dimension numbers is at `(p, q)` the sum over the
    contracted axis of the operands' products, whatever the precision and the schedule key. -/
theorem dotGeneral_plain_apply {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs_row _ _
      | ⟨1, _⟩ => exact (plain_lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs_row _ _).trans hk
      | ⟨1, _⟩ => exact plain_rhs_col _ _)
  rw [el, er]

/-- The host's whole product is `matProd` of its operands. -/
theorem dotGeneral_plain_eq {φ₁ φ₂ : FTy} (D : DotDims ⟨2, ![M, K]⟩ ⟨2, ![K, N]⟩ ⟨2, ![M, N]⟩)
    (hD : D = DotDims.plain M K N) (prec : Option ContractPrecision) (sched : HostSchedule)
    (lhs : FVec Ideal ⟨2, ![M, K]⟩ φ₁) (rhs : FVec Ideal ⟨2, ![K, N]⟩ φ₂) :
    FloatOps.dotGeneral D prec sched lhs rhs = matProd lhs rhs := by
  funext i
  obtain ⟨p, q, rfl⟩ : ∃ (p : Fin M) (q : Fin N), i = ix2 p q := ⟨i 0, i 1, eq_ix2 i⟩
  rw [dotGeneral_plain_apply D hD, matProd_apply]

end Cert.LibDotGeneralPlain

end
-- ==== Proof.Head.lean ====
/-
  The two-layer head as one function of its three operands.

  For a matrix `h` of M rows and 128 columns, `W1` of 128 by 128 and `W2` of 128 by 64, the hidden layer is
  `h · W1` clipped below at zero, entry by entry, and the head is the hidden layer times `W2`:

      head h W1 W2 (p, q) = Σ_k max (Σ_j h(p, j) · W1(j, k)) 0 · W2(k, q).

  Row `p` of the result reads row `p` of `h` and nothing else of it, so the head of a block of rows of `h` is the same
  block of rows of the head of `h`: this is why a kernel that computes the head row block by row block and a
  reference that computes it on the whole matrix agree. Zero is kept as the float word both programs spell.
-/
import proofs.«177761_j89859305766914_1_alg».proof.Proof.LibDotGeneralPlain

noncomputable section

open scoped BigOperators

namespace Cert.Head

open Idealize.ShloMosaic Idealize.ShloMosaic.ValueIdx Cert.LibDotGeneralPlain

variable {M : Nat}

/-- Clipping below at the zero word. -/
def clip0 (x : EReal) : EReal := max x (Ideal.ofBits .f32 0x00000000#32)

/-- The hidden layer: `h · W1`, every entry clipped below at zero. -/
def hidden (h : (⟨2, ![M, 128]⟩ : Shape).Idx → EReal) (W1 : (⟨2, ![128, 128]⟩ : Shape).Idx → EReal) :
    (⟨2, ![M, 128]⟩ : Shape).Idx → EReal :=
  fun i => clip0 (matProd h W1 i)

/-- The head: the hidden layer times `W2`. -/
def head (h : (⟨2, ![M, 128]⟩ : Shape).Idx → EReal) (W1 : (⟨2, ![128, 128]⟩ : Shape).Idx → EReal)
    (W2 : (⟨2, ![128, 64]⟩ : Shape).Idx → EReal) : (⟨2, ![M, 64]⟩ : Shape).Idx → EReal :=
  matProd (hidden h W1) W2

theorem hidden_apply (h : (⟨2, ![M, 128]⟩ : Shape).Idx → EReal) (W1 : (⟨2, ![128, 128]⟩ : Shape).Idx → EReal)
    (p : Fin M) (k : Fin 128) :
    hidden h W1 (ix2 p k) = clip0 (∑ j : Fin 128, h (ix2 p j) * W1 (ix2 j k)) := rfl

theorem head_apply (h : (⟨2, ![M, 128]⟩ : Shape).Idx → EReal) (W1 : (⟨2, ![128, 128]⟩ : Shape).Idx → EReal)
    (W2 : (⟨2, ![128, 64]⟩ : Shape).Idx → EReal) (p : Fin M) (q : Fin 64) :
    head h W1 W2 (ix2 p q)
      = ∑ k : Fin 128, clip0 (∑ j : Fin 128, h (ix2 p j) * W1 (ix2 j k)) * W2 (ix2 k q) := rfl

/-- ROWS: an entry of the head in row `p` of a matrix `x` is the entry in row `r` of the head of a matrix `h` whose row
    `r` is row `p` of `x`. -/
theorem head_of_row {M' : Nat} (x : (⟨2, ![M, 128]⟩ : Shape).Idx → EReal) (h : (⟨2, ![M', 128]⟩ : Shape).Idx → EReal)
    (W1 : (⟨2, ![128, 128]⟩ : Shape).Idx → EReal) (W2 : (⟨2, ![128, 64]⟩ : Shape).Idx → EReal)
    (p : Fin M) (r : Fin M') (q : Fin 64) (hrow : ∀ j : Fin 128, x (ix2 p j) = h (ix2 r j)) :
    head x W1 W2 (ix2 p q) = head h W1 W2 (ix2 r q) := by
  rw [head_apply, head_apply]
  refine Finset.sum_congr rfl fun k _ => ?_
  refine congrArg (fun s => clip0 s * W2 (ix2 k q)) ?_
  exact Finset.sum_congr rfl fun j _ => by rw [hrow j]

end Cert.Head

end
-- ==== Proof.KernelBlock.lean ====
/-
  One grid point of the kernel computes the head of its block of rows.

  The body loads a block `x0` of 4000 rows of the hidden input, the whole `W1` and the whole `W2`; changes of float
  format are the identity over the extended reals, so what it stores is
      (max (x0 · W1) 0) · W2,
  both products accumulated from the zero matrix: entry (p, q) is Σ_k max (Σ_j x0(p, j) · W1(j, k)) 0 · W2(k, q),
  which is `Cert.Head.head x0 W1 W2` at (p, q).
-/
import proofs.«177761_j89859305766914_1_alg».proof.Proof.Gen.KernelIdeal.Skeleton
import proofs.«177761_j89859305766914_1_alg».proof.Proof.Head
import Idealize.ShloMosaic.Lib.Pipeline.Value

noncomputable section

open scoped BigOperators

namespace Cert.KernelIdeal.Block

open Cert.KernelIdeal Cert.KernelIdeal.Gen Idealize.ShloMosaic Idealize.ShloMosaic.ValueIdx
open Cert.Head Cert.LibMatmulPlain Cert.LibDotGeneralPlain

/-- The hidden layer of a block, at an entry: the first product, clipped below at zero, the format changes dropped. -/
theorem hidden_entry (x0 : Vec Ideal S4000x128 .f32) (x1 : Vec Ideal S128x128 .f32) (p : Fin 4000) (k : Fin 128) :
    (truncf (F := Ideal) .bf16
        (maximumf (F := Ideal)
          (matmul (F := Ideal) dot_S4000x128_S128x128_S4000x128_1_0_0_1_n_n none
            (truncf (F := Ideal) .bf16 (shapeCast S4000x128 x0 shapeCasts_S4000x128_S4000x128 : FVec Ideal S4000x128 .f32) bitsLt_bf16_f32)
            (truncf (F := Ideal) .bf16 (x1 : FVec Ideal S128x128 .f32) bitsLt_bf16_f32)
            (constant (F := Ideal) S4000x128 .f32 0x00000000#32))
          (broadcast S4000x128 (Scalar.ofBits (F := Ideal) .f32 0x00000000#32)))
        bitsLt_bf16_f32 : FVec Ideal S4000x128 .bf16) (ix2 p k)
      = clip0 (∑ j : Fin 128, x0 (ix2 p j) * x1 (ix2 j k)) := by
  show max (FloatOps.matmul (F := Ideal) dot_S4000x128_S128x128_S4000x128_1_0_0_1_n_n none _ _ _ (ix2 p k)) _ = _
  rw [matmul_plain_zero_apply dot_S4000x128_S128x128_S4000x128_1_0_0_1_n_n rfl none _ _ p k, shapeCast_self]
  rfl

/-- WHAT ONE POINT STORES is the head of its block of rows. -/
theorem pay_eq (x0 : Vec Ideal S4000x128 .f32) (x1 : Vec Ideal S128x128 .f32) (x2 : Vec Ideal S128x64 .f32) :
    k0_pay1 (F := Ideal) x0 x1 x2 = head (M := 4000) x0 x1 x2 := by
  funext i
  obtain ⟨p, q, rfl⟩ : ∃ (p : Fin 4000) (q : Fin 64), i = ix2 p q := ⟨i 0, i 1, eq_ix2 i⟩
  unfold k0_pay1
  refine (matmul_plain_zero_apply dot_S4000x128_S128x64_S4000x64_1_0_0_1_n_n rfl none _ _ p q).trans ?_
  refine Eq.trans ?_ (head_apply (M := 4000) x0 x1 x2 p q).symm
  refine Finset.sum_congr rfl fun k _ => ?_
  exact congrArg (fun s => s * x2 (ix2 k q)) (hidden_entry x0 x1 p k)

end Cert.KernelIdeal.Block

end
-- ==== Proof.KernelArray.lean ====
/-
  From what each grid point stores to the whole result array.

  The grid has 25 points; point `t` reads rows 4000·t … 4000·t + 3999 of the propagated features (all 128 columns),
  the whole of `W1` and of `W2`, and writes rows 4000·t … 4000·t + 3999 of the result (all 64 columns). What it
  writes is the head of its block of rows (`Block.pay_eq`), and an entry of the head depends on the features through
  its own row only (`Head.head_of_row`), so block `t` of the result is block `t` of the head of the whole matrix. The
  25 blocks tile the 100000 rows (row `r` is in block `r / 4000`), so the result array ends holding the head of the
  whole matrix.
-/
import proofs.«177761_j89859305766914_1_alg».proof.Proof.Gen.KernelIdeal.Value
import proofs.«177761_j89859305766914_1_alg».proof.Proof.KernelBlock

noncomputable section

open Idealize.ShloMosaic Idealize.ShloMosaic.TcCoe Idealize.SL.Sem
open Idealize.ShloMosaic.Pipeline (Dat)

namespace Cert.KernelIdeal.Arr

open Cert.KernelIdeal Cert.KernelIdeal.Gen Cert.KernelIdeal.Value Idealize.ShloMosaic.ValueIdx Cert.Head

variable (m : (ℓ : Loc nD τ sig) → Buf (Elt Ideal) ℓ) (ρ : Dev nD → PrngReg)

theorem zero_off : (![0, 0] : Fin 2 → Nat) = fun _ => 0 := funext fun a => by fin_cases a <;> rfl

/-- The block index of each window at each of the 25 points: the row windows move with the point along the rows, the
    weight windows stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The propagated features, `W1` and `W2` as the region finds them. -/
abbrev feats (c : Dev nD) : S100000x128.Idx → EReal := V m c main_v82
abbrev w1 (c : Dev nD) : S128x128.Idx → EReal := V m c main_arg1
abbrev w2 (c : Dev nD) : S128x64.Idx → EReal := V m c main_arg2

/-- The `W1` window's block at any point is the whole of `W1`. -/
theorem iblk1_eq (c : Dev nD) (t : Fin cfg0.N) : (iblk m c 1 t : S128x128.Idx → EReal) = w1 m c := by
  funext y
  show V m c main_arg1 (((cfg0.win 1).blk t).view.emb y) = V m c main_arg1 y
  have h : ((cfg0.win 1).blk t).view.emb y = y := by
    obtain ⟨-, -, e0, e1, -⟩ := idx_facts t
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega
  rw [h]

/-- The `W2` window's block at any point is the whole of `W2`. -/
theorem iblk2_eq (c : Dev nD) (t : Fin cfg0.N) : (iblk m c 2 t : S128x64.Idx → EReal) = w2 m c := by
  funext y
  show V m c main_arg2 (((cfg0.win 2).blk t).view.emb y) = V m c main_arg2 y
  have h : ((cfg0.win 2).blk t).view.emb y = y := by
    obtain ⟨-, -, -, -, e0, e1, -⟩ := idx_facts t
    funext a; apply Fin.ext
    match a with
    | ⟨0, _⟩ => show win0_2.index t (0 : Fin 2) * 128 + 1 * (y 0).val = (y 0).val; omega
    | ⟨1, _⟩ => show win0_2.index t (1 : Fin 2) * 64 + 1 * (y 1).val = (y 1).val; omega
  rw [h]

/-- Row `p` of the features window's block at point `t` is row `4000·t + p` of the features. -/
theorem iblk0_apply (c : Dev nD) (t : Fin cfg0.N) (p : Fin 4000) (j : Fin 128) (r : Fin 100000)
    (hr : r.val = 4000 * t.val + p.val) :
    (iblk m c 0 t : S4000x128.Idx → EReal) (ix2 p j) = feats m c (ix2 r j) := by
  show V m c main_v82 (((cfg0.win 0).blk t).view.emb (ix2 p j)) = V m c main_v82 (ix2 r j)
  have h : ((cfg0.win 0).blk t).view.emb (ix2 p j) = ix2 r j := by
    obtain ⟨e0, e1, -⟩ := idx_facts t
    funext a; apply Fin.ext
    match a with
    | ⟨0, _⟩ => show win0_0.index t (0 : Fin 2) * 4000 + 1 * p.val = r.val; omega
    | ⟨1, _⟩ => show win0_0.index t (1 : Fin 2) * 128 + 1 * j.val = j.val; omega
  rw [h]

/-- Entry `(p, q)` of the result window's block at point `t` sits at `(4000·t + p, q)` of the result array. -/
theorem oblk_emb (t : Fin cfg0.N) (p : Fin 4000) (q : Fin 64) (r : Fin 100000) (hr : r.val = 4000 * t.val + p.val) :
    ((cfg0.win 3).blk t).view.emb (ix2 p q) = (ix2 r q : S100000x64.Idx) := by
  obtain ⟨-, -, -, -, -, -, e0, e1⟩ := idx_facts t
  funext a; apply Fin.ext
  match a with
  | ⟨0, _⟩ => show win0_3.index t (0 : Fin 2) * 4000 + 1 * p.val = r.val; omega
  | ⟨1, _⟩ => show win0_3.index t (1 : Fin 2) * 64 + 1 * q.val = q.val; omega

/-- The head of point `t`'s block of rows, at an entry, is the head of the whole features matrix at the entry's place
    in the result array. -/
theorem block_head (c : Dev nD) (t : Fin cfg0.N) (y : S4000x64.Idx) :
    head (M := 4000) (iblk m c 0 t) (w1 m c) (w2 m c) y
      = head (M := 100000) (feats m c) (w1 m c) (w2 m c) (((cfg0.win 3).blk t).view.emb y) := by
  obtain ⟨p, q, rfl⟩ : ∃ (p : Fin 4000) (q : Fin 64), y = ix2 p q := ⟨y 0, y 1, eq_ix2 y⟩
  have hN : cfg0.N = 25 := N_0
  have hlt : 4000 * t.val + p.val < 100000 := by have := t.isLt; have := p.isLt; omega
  rw [oblk_emb t p q ⟨4000 * t.val + p.val, hlt⟩ rfl]
  exact head_of_row _ _ _ _ p ⟨4000 * t.val + p.val, hlt⟩ q (fun j => iblk0_apply m c t p j _ rfl)

/-- WHAT POINT `t` WRITES BACK is block `t` of the head of the whole features matrix. -/
theorem flushed_eq (c : Dev nD) (t : Fin cfg0.N) :
    (dats m 0 c).flushed 3 t
      = ((cfg0.win 3).blk t).view.read (Elt Ideal) (head (M := 100000) (feats m c) (w1 m c) (w2 m c)) := by
  rw [flushed3]
  unfold out0_3
  rw [View.canon_unit_zero zero_off]
  simp only [View.ld_unit_zero (S := S4000x128) zero_off, View.ld_unit_zero (S := S128x128) zero_off,
    View.ld_unit_zero (S := S128x64) zero_off]
  rw [Block.pay_eq, iblk1_eq, iblk2_eq]
  funext y
  exact block_head m c t y

/-- An index of the result array is in point `t`'s block iff its row is among the block's 4000 and its column among the 64. -/
theorem mem_blk (t : Fin cfg0.N) (i : S100000x64.Idx) :
    i ∈ ((cfg0.win 3).blk t).view.set ↔ ∀ a : Fin 2, win0_3.index t a * S4000x64.size a ≤ (i a).val ∧ (i a).val < win0_3.index t a * S4000x64.size a + S4000x64.size a := by
  show i ∈ ((View.whole main_v83).slice (win0_3.rect t)).set ↔ _
  rw [View.set_slice_whole, Rect.mem_set_unit]
  exact Iff.rfl

/-- The blocks cover the result array: row `r` is in the block of point `r / 4000`. -/
theorem cover (i : S100000x64.Idx) :
    ∃ t : Fin cfg0.N, (cfg0.win 3).flush t = true ∧ i ∈ ((cfg0.win 3).blk t).view.set := by
  have hN : cfg0.N = 25 := N_0
  have hi0 : (i 0).val < 100000 := (i 0).isLt
  have hi1 : (i 1).val < 64 := (i 1).isLt
  let t : Fin cfg0.N := ⟨(i 0).val / 4000, by omega⟩
  have ht : t.val = (i 0).val / 4000 := rfl
  refine ⟨t, flush0_3 t, ?_⟩
  rw [mem_blk]
  obtain ⟨-, -, -, -, -, -, e0, e1⟩ := idx_facts t
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 64 ≤ (i 1).val ∧ (i 1).val < win0_3.index t (1 : Fin 2) * 64 + 64; omega

/-- THE RESULT ARRAY after the run is the head of the whole features matrix. -/
theorem final (c : Dev nD) :
    (dats m 0 c).arrAt 3 cfg0.N = head (M := 100000) (feats m c) (w1 m c) (w2 m c) :=
  (dats m 0 c).arrAt_eq_of_cover 3 (head (M := 100000) (feats m c) (w1 m c) (w2 m c)) (fun t _ => flushed_eq m c t) cover

/-- The kernel's run, read: the result array at the head of the features as the region finds them and of the two weight
    arguments, the arguments unchanged. -/
theorem run : θ_run defs (onTc (τ := τ) (main (F := Ideal))) ⟨m, fun _ => 0, ρ⟩ fun r => ∀ c : Dev nD,
      r.2.mem ((c : Thread nD τ).loc main_v83)
        = head (M := 100000) (feats m c) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      show head (feats m c) (V m c main_arg1) (V m c main_arg2) = _
      rw [V_main_arg1, V_main_arg2])), (h c).2⟩)
    (run_blocks m ρ)

end Cert.KernelIdeal.Arr

end
-- ==== Proof.RefHead.lean ====
/-
  The reference's last three operations are the head of what its first operations compute.

  After the graph propagation (whose result, as a function of the features and the edge list, is the stage the
  generated reading names `val_main_v82`), the reference multiplies by `W1`, takes the maximum with a zero matrix,
  and multiplies by `W2`. Over the extended reals each product is the plain matrix product, so the result is
  `Cert.Head.head` of the propagated features, `W1` and `W2`.
-/
import proofs.«177761_j89859305766914_1_alg».proof.Proof.Gen.ReferenceIdeal.Read
import proofs.«177761_j89859305766914_1_alg».proof.Proof.Head

noncomputable section

open scoped BigOperators

namespace Cert.ReferenceIdeal.RefHead

open Cert.ReferenceIdeal Cert.ReferenceIdeal.Gen Cert.ReferenceIdeal.Read Idealize.ShloMosaic Idealize.ShloMosaic.ValueIdx
open Cert.Head Cert.LibDotGeneralPlain

/-- The maximum with the zero matrix is the clip below at zero, entry by entry. -/
theorem relu_eq (y : FVec Ideal S100000x128 .f32) :
    maximumf y (val_main_call1_v0 (F := Ideal)) = fun i => clip0 (y i) := by
  funext i
  show max (y i) (val_main_call1_v0 (F := Ideal) i) = _
  rw [val_main_call1_v0_apply]
  rfl

/-- THE REFERENCE'S RESULT is the head of the propagated features. -/
theorem result_eq (x0 : (⟨S100000x128, .f32⟩ : BufTy).Contents (Elt Ideal)) (x1 : (⟨S128x128, .f32⟩ : BufTy).Contents (Elt Ideal))
    (x2 : (⟨S128x64, .f32⟩ : BufTy).Contents (Elt Ideal)) (x3 : (⟨S2x1600000, .i32⟩ : BufTy).Contents (Elt Ideal)) :
    val_main_v85 (F := Ideal) x0 x1 x2 x3 = head (M := 100000) (val_main_v82 (F := Ideal) x0 x3) x1 x2 := by
  unfold val_main_v85 val_main_v84 val_main_v83
  generalize val_main_v82 (F := Ideal) x0 x3 = h
  simp only [Host.dotGeneral]
  rw [dotGeneral_plain_eq dot_S100000x128_S128x64_S100000x64_1_0_0_1_n_n rfl,
    dotGeneral_plain_eq dot_S100000x128_S128x128_S100000x128_1_0_0_1_n_n rfl, relu_eq]
  rfl

end Cert.ReferenceIdeal.RefHead

end
-- ==== Proof.HostPrefix.lean ====
/-
  Both programs prepare the head's input by the same host operations.

  Before the head, the kernel's program and the reference run the same lines on the features and the edge list: scale
  by one half, count each node's incoming edges, weigh every edge by the inverse square roots of its two ends' clipped
  counts, then four times gather along the edges, weigh, and sum into the destinations, adding up the five stages and
  dividing by five. Operation by operation the two texts are the same, so the array the kernel's region finds as its
  first operand is, as a function of the two arguments, the stage the reference's reading names for that line.
  Nothing of these operations is opened: the two composed terms are compared as they stand. The one preparation is
  for the clipping of the counts, which both programs call as a function: its three lines carry their operands
  through the called function's typed references, which is the identity on the contents, and are restated as
  plain operations on the same buffers first.
-/
import proofs.«177761_j89859305766914_1_alg».proof.Proof.Gen.KernelIdeal.Frame
import proofs.«177761_j89859305766914_1_alg».proof.Proof.Gen.ReferenceIdeal.Read
import Idealize.ShloMosaic.Lib.StableHlo.Run

noncomputable section

namespace Cert.KernelIdeal.Prefix

open Cert.KernelIdeal Cert.KernelIdeal.Gen Idealize.ShloMosaic Idealize.ShloMosaic.TcCoe Idealize.SL.Sem Idealize.ShloMosaic.StableHlo

/-- The called clipping function's three lines as plain operations on its buffers: a copy of the bound, its
    broadcast along the nodes, the maximum with the counts. -/
theorem clip_ops : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (fun u : (⟨S_, .f32⟩ : BufTy).Contents (Elt Ideal) => (broadcastInDim S100000 ![] bcast_S_S100000 u : (⟨S100000, .f32⟩ : BufTy).Contents (Elt Ideal))),
      StableHlo.binary main_call0_v1 main_v9 main_v10 (maximumf (F := Ideal) (s := S100000) (φ := .f32)) ] := rfl

set_option maxRecDepth 16384 in
set_option maxHeartbeats 8000000 in
/-- THE HEAD'S INPUT as the region finds it is the reference's propagated-features stage of the same two arguments. -/
theorem feats_eq (m : (ℓ : Loc nD τ sig) → Buf (Elt Ideal) ℓ) (c : Dev nD) :
    (V m c main_v82 : S100000x128.Idx → EReal)
      = Cert.ReferenceIdeal.Read.val_main_v82 (F := Ideal) (m ((c : Thread nD τ).loc main_arg0)) (m ((c : Thread nD τ).loc main_arg3)) := by
  dsimp only [V]
  rw [clip_ops]
  simp only [hostOps0, hostOps0_2, List.flatten_cons, List.flatten_nil, List.append_nil, List.cons_append,
    List.nil_append]
  after_results_simp
  rfl

end Cert.KernelIdeal.Prefix

end
-- ==== Proof.lean ====
/- The proof of `Cert.Claim` for a graph propagation followed by a two-layer head.

   Both programs first run the same host operations on the features and the edge list (scale by one half, weigh the
   edges by the ends' clipped in-degrees, four rounds of gather–weigh–sum, the mean of the five stages) and then apply
   the head  out = max (h · W1) 0 · W2  to the result `h` (100000 × 128). The reference does it with two whole matrix
   products; the kernel walks 25 blocks of 4000 rows, and on each block rounds to a shorter float format before each
   product. Over the extended reals a format change is the identity and each product is the plain sum
   Σ_k a(p, k) · b(k, q), so on a block the kernel computes the head of the block (Proof/KernelBlock.lean); row p of
   the head reads only row p of `h`, so the blocks are the row blocks of the head of the whole `h`, and they tile the
   array (Proof/KernelArray.lean). The reference's three last operations are the same head (Proof/RefHead.lean) of the
   same `h`: the shared host operations are compared as they stand and never opened (Proof/HostPrefix.lean). No law of
   arithmetic beyond reading both sums in the same order is needed, and the inputs' finiteness is not used.
   The frames are the generated ones (the reference's is its generated run with the result dropped); the
   idealization rewrote no operation, so `preserves` asks nothing. -/
import proofs.«177761_j89859305766914_1_alg».proof.Defs
import proofs.«177761_j89859305766914_1_alg».proof.Proof.Gen.Kernel
import proofs.«177761_j89859305766914_1_alg».proof.Proof.Gen.Kernel.Frame
import proofs.«177761_j89859305766914_1_alg».proof.Proof.Gen.KernelIdeal
import proofs.«177761_j89859305766914_1_alg».proof.Proof.Gen.KernelIdeal.Frame
import proofs.«177761_j89859305766914_1_alg».proof.Proof.Gen.KernelIdeal.Value
import proofs.«177761_j89859305766914_1_alg».proof.Proof.Gen.ReferenceIdeal
import proofs.«177761_j89859305766914_1_alg».proof.Proof.Gen.ReferenceIdeal.Run
import proofs.«177761_j89859305766914_1_alg».proof.Proof.Gen.ReferenceIdeal.Read
import proofs.«177761_j89859305766914_1_alg».proof.Proof.Gen.Pre_finite_inputs
import proofs.«177761_j89859305766914_1_alg».proof.Proof.KernelArray
import proofs.«177761_j89859305766914_1_alg».proof.Proof.RefHead
import proofs.«177761_j89859305766914_1_alg».proof.Proof.HostPrefix
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the head of the propagated features, `W1` and `W2`: the kernel's result array by its blocks,
    the reference's by its last three operations, the propagated features one function of the arguments that agree. -/
theorem algebraic : Cert.algebraic_KernelIdeal_ReferenceIdeal := by
  intro m ρ m' ρ' _ hagree
  refine ⟨fun c => Cert.Head.head (M := 100000)
      (Cert.ReferenceIdeal.Read.val_main_v82 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.Arr.run m ρ)
    show Cert.Head.head (Cert.KernelIdeal.Gen.V m c Cert.KernelIdeal.main_v82) _ _ = _
    rw [Cert.KernelIdeal.Prefix.feats_eq m c]
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v85_eq, Cert.ReferenceIdeal.RefHead.result_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
